-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![4, 4, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x4096.size a
  hwx2_0 : ∀ i : grid2.Coords, EltTy.bits .bf16 = 32 ∨ (Rect.block (s := S8192x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .bf16 = 32 ∨ (Rect.block (s := S4096x4096) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .f32 = 32 ∨ (Rect.block (s := S8192x4096) S2048x1024.size (cc2_transform_3 i) (hinb2_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.RunNamed.lean ====
/-
  The kernel program's run, with its result named.

  @main is three kernel regions with one host reshape between the second and the third. The contents of every buffer at
  each boundary are a fold from the launch memory (`W0 … W4`); the last boundary's contents `W4` are what every weakly
  fair execution ends holding at every buffer the program does not scope. Read at the result buffer that is the third
  region's output array after its write-backs; read at the arguments it is the launch memory.
-/
import proofs.«159433_j19859928776709_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the three arguments as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunNamed

end
-- ==== Proof.Spec.lean ====
/-
  The specification: a linear layer on binarised operands.

  Both programs replace every entry of `x` [8192, 4096] and of `weight` [4096, 4096] by `bin` of it — `1` where the
  entry exceeds zero, `-1` elsewhere (at zero too) — and return, at row `r` and column `c`,
      ∑ₖ bin (x r k) · bin (weight c k)  +  bias c,
  the contraction running over the 4096 shared columns. `lin` is that function of the three argument arrays, over the
  extended reals. The three float words the programs spell (`+0.0`, `1.0`, `-1.0`) are read here, once.
-/
import Idealize.ShloMosaic.PureOps.Ideal
import Idealize.ShloMosaic.Lib.ValueIdx

noncomputable section

namespace Cert.BinLinear

open Idealize.ShloMosaic Idealize.ShloMosaic.ValueIdx

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `-1.0` denotes `-1`: the word of `1.0` with the sign bit set. -/
theorem ofBits_neg_one : Ideal.ofBits .f32 0xBF800000#32 = -1 := by
  simp [Ideal.ofBits, Ideal.ieee, -EReal.coe_mul]; norm_num

/-- The binarisation of one entry: `1.0` where it exceeds `+0.0`, `-1.0` elsewhere. -/
def bin (x : EReal) : EReal :=
  Scalar.select (Ideal.cmp .ogt x (Ideal.ofBits .f32 0x00000000#32))
    (Ideal.ofBits .f32 0x3F800000#32) (Ideal.ofBits .f32 0xBF800000#32)

/-- The same with the lower value spelt as the negation of `1.0` (how jnp's `where(x > 0, one, -one)` lowers). -/
theorem bin_eq_neg (x : EReal) :
    Scalar.select (Ideal.cmp .ogt x (Ideal.ofBits .f32 0x00000000#32))
      (Ideal.ofBits .f32 0x3F800000#32) (-(Ideal.ofBits .f32 0x3F800000#32)) = bin x := by
  unfold bin
  rw [ofBits_one, ofBits_neg_one]

/-- The layer: at row `r`, column `c`, the sum over the shared columns of the binarised products, plus the bias. -/
def lin (X : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ k : Fin 4096, bin (X (ix2 (i 0) k)) * bin (W (ix2 (i 1) k))) + b (ix1 (i 1))

end Cert.BinLinear

end
-- ==== Proof.Binarize0.lean ====
/-
  The first binarisation kernel: what its result array holds after the run.

  The kernel walks the 8192 rows of its operand in 16 blocks of 512 full rows; at each block it stores, entry by entry,
  `bin` of what it loaded (the change of float format on the way out is the identity on extended reals), and writes
  the block back at once. Block `t` of the operand and block `t` of the result sit at the same rows (`idx_facts`), so
  what point `t` writes back is block `t` of ONE array — `bin` of the operand, entry by entry — and the 16 blocks
  cover the result (row `r` lies in block `r / 512`). Stated for any contents `V` the region may find on entry.
-/
import proofs.«159433_j19859928776709_2_alg».proof.Proof.Gen.KernelIdeal.Frame
import proofs.«159433_j19859928776709_2_alg».proof.Proof.Spec
import Idealize.ShloMosaic.Lib.Pipeline.Value

noncomputable section

namespace Cert.KernelIdeal.Bin0

open Cert.KernelIdeal Cert.KernelIdeal.Gen Cert.BinLinear
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The operand binarised entry by entry: what the result array ends holding. -/
def binArr (c : Dev nD) : S8192x4096.Idx → Elt Ideal .bf16 := fun i => bin (V c main_arg0 i)

/-- The stored value is `bin` of the loaded one, entry by entry. -/
theorem pay_apply (x0 : Vec Ideal S512x4096 .f32) (y : S512x4096.Idx) : k0_pay1 x0 y = bin (x0 y) := rfl

/-- The two windows' blocks sit at the same place: block row `t`, the one block column. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point `t` writes back is block `t` of the binarised operand. -/
theorem flushed_eq (c : Dev nD) (t : Fin cfg0.N) :
    (dat0 V c).flushed 1 t = ((cfg0.win 1).blk t).view.read (Elt Ideal) (binArr V c) := by
  show (cfg0.win 1).cut (grid0.coords t) ((dat0 V c).after 1 t) = _
  rw [after0_1]
  unfold out0_1
  rw [View.canon_unit_zero hz]
  simp only [View.ld_unit_zero (S := S512x4096) hz]
  obtain ⟨e0, e1, e2, e3⟩ := idx_facts t
  funext j
  show bin (V c main_arg0 (((cfg0.win 0).blk t).view.emb j)) = bin (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; rw [e0]
    | ⟨1, _⟩ => show win0_0.index t (1 : Fin 2) * 4096 + 1 * (j 1).val = win0_1.index t (1 : Fin 2) * 4096 + 1 * (j 1).val; rw [e1]
  rw [h0]

/-- An index of the result lies in point `t`'s block iff each coordinate is in the block's range on its axis. -/
theorem mem_blk (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- The result array after the run: the operand binarised. Row `r` is written by point `r / 512`. -/
theorem final (c : Dev nD) : (dat0 V c).arrAt 1 cfg0.N = binArr V c :=
  (dat0 V c).arrAt_eq_of_cover 1 (binArr V c) (fun t _ => flushed_eq V c t) fun i => by
    have hi0 : (i 0).val < 8192 := (i 0).isLt
    have hi1 : (i 1).val < 4096 := (i 1).isLt
    have hN : cfg0.N = 16 := N_0
    have hlt : (i 0).val / 512 < cfg0.N := by rw [hN]; omega
    obtain ⟨e0, e1, e2, e3⟩ := idx_facts ⟨(i 0).val / 512, hlt⟩
    refine ⟨⟨(i 0).val / 512, hlt⟩, flush0_1 _, ?_⟩
    rw [mem_blk]
    intro a
    match a with
    | ⟨0, _⟩ =>
      show win0_1.index ⟨(i 0).val / 512, hlt⟩ (0 : Fin 2) * 512 ≤ (i 0).val ∧ (i 0).val < win0_1.index ⟨(i 0).val / 512, hlt⟩ (0 : Fin 2) * 512 + 512
      rw [e2]; dsimp only; omega
    | ⟨1, _⟩ =>
      show win0_1.index ⟨(i 0).val / 512, hlt⟩ (1 : Fin 2) * 4096 ≤ (i 1).val ∧ (i 1).val < win0_1.index ⟨(i 0).val / 512, hlt⟩ (1 : Fin 2) * 4096 + 4096
      rw [e3]; omega

end Cert.KernelIdeal.Bin0

end
-- ==== Proof.Binarize1.lean ====
/-
  The second binarisation kernel: what its result array holds after the run.

  The kernel walks the 4096 rows of its operand in 8 blocks of 512 full rows; at each block it stores, entry by entry,
  `bin` of what it loaded (the change of float format on the way out is the identity on extended reals), and writes
  the block back at once. Block `t` of the operand and block `t` of the result sit at the same rows (`idx_facts`), so
  what point `t` writes back is block `t` of ONE array — `bin` of the operand, entry by entry — and the 8 blocks
  cover the result (row `r` lies in block `r / 512`). Stated for any contents `V` the region may find on entry.
-/
import proofs.«159433_j19859928776709_2_alg».proof.Proof.Gen.KernelIdeal.Frame
import proofs.«159433_j19859928776709_2_alg».proof.Proof.Spec
import Idealize.ShloMosaic.Lib.Pipeline.Value

noncomputable section

namespace Cert.KernelIdeal.Bin1

open Cert.KernelIdeal Cert.KernelIdeal.Gen Cert.BinLinear
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The operand binarised entry by entry: what the result array ends holding. -/
def binArr (c : Dev nD) : S4096x4096.Idx → Elt Ideal .bf16 := fun i => bin (V c main_arg1 i)

/-- The stored value is `bin` of the loaded one, entry by entry. -/
theorem pay_apply (x0 : Vec Ideal S512x4096 .f32) (y : S512x4096.Idx) : k1_pay1 x0 y = bin (x0 y) := rfl

/-- The two windows' blocks sit at the same place: block row `t`, the one block column. -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- What point `t` writes back is block `t` of the binarised operand. -/
theorem flushed_eq (c : Dev nD) (t : Fin cfg1.N) :
    (dat1 V c).flushed 1 t = ((cfg1.win 1).blk t).view.read (Elt Ideal) (binArr V c) := by
  show (cfg1.win 1).cut (grid1.coords t) ((dat1 V c).after 1 t) = _
  rw [after1_1]
  unfold out1_1
  rw [View.canon_unit_zero hz]
  simp only [View.ld_unit_zero (S := S512x4096) hz]
  obtain ⟨e0, e1, e2, e3⟩ := idx_facts t
  funext j
  show bin (V c main_arg1 (((cfg1.win 0).blk t).view.emb j)) = bin (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; rw [e0]
    | ⟨1, _⟩ => show win1_0.index t (1 : Fin 2) * 4096 + 1 * (j 1).val = win1_1.index t (1 : Fin 2) * 4096 + 1 * (j 1).val; rw [e1]
  rw [h0]

/-- An index of the result lies in point `t`'s block iff each coordinate is in the block's range on its axis. -/
theorem mem_blk (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- The result array after the run: the operand binarised. Row `r` is written by point `r / 512`. -/
theorem final (c : Dev nD) : (dat1 V c).arrAt 1 cfg1.N = binArr V c :=
  (dat1 V c).arrAt_eq_of_cover 1 (binArr V c) (fun t _ => flushed_eq V c t) fun i => by
    have hi0 : (i 0).val < 4096 := (i 0).isLt
    have hi1 : (i 1).val < 4096 := (i 1).isLt
    have hN : cfg1.N = 8 := N_1
    have hlt : (i 0).val / 512 < cfg1.N := by rw [hN]; omega
    obtain ⟨e0, e1, e2, e3⟩ := idx_facts ⟨(i 0).val / 512, hlt⟩
    refine ⟨⟨(i 0).val / 512, hlt⟩, flush1_1 _, ?_⟩
    rw [mem_blk]
    intro a
    match a with
    | ⟨0, _⟩ =>
      show win1_1.index ⟨(i 0).val / 512, hlt⟩ (0 : Fin 2) * 512 ≤ (i 0).val ∧ (i 0).val < win1_1.index ⟨(i 0).val / 512, hlt⟩ (0 : Fin 2) * 512 + 512
      rw [e2]; dsimp only; omega
    | ⟨1, _⟩ =>
      show win1_1.index ⟨(i 0).val / 512, hlt⟩ (1 : Fin 2) * 4096 ≤ (i 1).val ∧ (i 1).val < win1_1.index ⟨(i 0).val / 512, hlt⟩ (1 : Fin 2) * 4096 + 4096
      rw [e3]; omega

end Cert.KernelIdeal.Bin1

end
-- ==== Proof.MatmulBody.lean ====
/-
  The matrix-product kernel's body, case by case.

  The body keeps a [2048, 1024] tile of the result in its output buffer while the grid walks the eight column blocks
  of the contraction. With `acc` what the buffer holds when the body starts, `a` the [2048, 512] block of the
  binarised `x` and `w` the [1024, 512] block of the binarised weights:
    * at the first column block it stores the zero tile and then `0 + a·wᵀ`;
    * at a middle one it stores `acc + a·wᵀ`;
    * at the last one it stores `acc + a·wᵀ` and then that plus the bias row, broadcast over the rows.
  Each case's stores cover the whole buffer, so what the buffer holds afterwards is the last store's value, with the
  value the body read back from its own earlier store put in place.
-/
import proofs.«159433_j19859928776709_2_alg».proof.Proof.Gen.KernelIdeal.Frame
import Idealize.ShloMosaic.Lib.Pipeline.Value
import Idealize.ShloMosaic.Lib.Tactic

noncomputable section

namespace Cert.KernelIdeal.MatmulBody

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-- First column block: the zero tile, then the product added to it. -/
theorem out_A (c : Dev nD) (i : grid2.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : cond2_0 i) (hc1 : ¬cond2_1 i)
    (x0 : Vec F S2048x512 .bf16) (x1 : Vec F S1024x512 .bf16) (x2 : Vec F S1x1024 .f32) :
    out2_A_3 c i a3 h3 a4 h4 a5 h5 a6 h6 hc0 hc1 x0 x1 x2 = k2_pay2 (k2_pay1 (F := F)) x0 x1 := by
  unfold out2_A_3
  rw [View.read_writes_eq_canon _ _ _ (cover2_A_3 c i a3 h3 a4 h4 a5 h5 a6 h6 hc0 hc1 x0 x1 x2)]
  unfold kernelRun2_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- A middle column block: the product added to what the buffer held. -/
theorem out_B (c : Dev nD) (i : grid2.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : ¬cond2_0 i) (hc1 : ¬cond2_1 i)
    (x0 : Vec F S2048x512 .bf16) (x1 : Vec F S1024x512 .bf16) (x2 : Vec F S1x1024 .f32) (xo : Vec F S2048x1024 .f32) :
    out2_B_3 c i a3 h3 a4 h4 a5 h5 a6 h6 hc0 hc1 x0 x1 x2 xo = k2_pay2 xo x0 x1 := by
  unfold out2_B_3
  rw [View.read_writes_eq_canon _ _ _ (cover2_B_3 c i a3 h3 a4 h4 a5 h5 a6 h6 hc0 hc1 x0 x1 x2 xo)]
  unfold kernelRun2_B
  dsimp only
  sl_unfold_words
  rw [View.canon_unit_zero (S := S2048x1024) hz]
  simp only [View.readAt_eq_ld, h3.read_unread, h4.read_unread, h6.read_unread, View.ld_unit_zero (S := S2048x512) hz,
    View.ld_unit_zero (S := S1024x512) hz, View.ld_unit_zero (S := S2048x1024) hz]

/-- The last column block: the product added to what the buffer held, then the bias row added to that. -/
theorem out_C (c : Dev nD) (i : grid2.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : ¬cond2_0 i) (hc1 : cond2_1 i)
    (x0 : Vec F S2048x512 .bf16) (x1 : Vec F S1024x512 .bf16) (x2 : Vec F S1x1024 .f32) (xo : Vec F S2048x1024 .f32) :
    out2_C_3 c i a3 h3 a4 h4 a5 h5 a6 h6 hc0 hc1 x0 x1 x2 xo = k2_pay3 (k2_pay2 xo x0 x1) x2 := by
  unfold out2_C_3
  rw [View.read_writes_eq_canon _ _ _ (cover2_C_3 c i a3 h3 a4 h4 a5 h5 a6 h6 hc0 hc1 x0 x1 x2 xo)]
  unfold kernelRun2_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x512) hz, View.ld_unit_zero (S := S1024x512) hz, View.ld_unit_zero (S := S1x1024) hz,
    View.ld_unit_zero (S := S2048x1024) hz]

end Cert.KernelIdeal.MatmulBody

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.MatmulPay.lean ====
/-
  The matrix-product kernel's stored values, read at an entry, on the extended reals.

  At row `p`, column `q` of the [2048, 1024] tile:
    * the zero tile reads `0`;
    * `acc + a·wᵀ` reads `acc p q + ∑ₖ a p k · w q k`, the sum over the block's 512 columns (both operands are
      contracted on their second axis; the product starts from the zero tile);
    * adding the bias row, broadcast over the rows, reads `v p q + bias 0 q`.
  The reshapes the body spells are reshapes to the same shape.
-/
import proofs.«159433_j19859928776709_2_alg».proof.Proof.Gen.KernelIdeal.Skeleton
import proofs.«159433_j19859928776709_2_alg».proof.Proof.LibContract1
import Idealize.ShloMosaic.Lib.Pipeline.Value
import Idealize.ShloMosaic.Lib.ValueIdx
import Idealize.ShloMosaic.PureOps.Ideal.Laws

noncomputable section

namespace Cert.KernelIdeal.MatmulPay

open Cert.KernelIdeal Cert.KernelIdeal.Gen
open Idealize.ShloMosaic Idealize.ShloMosaic.TcCoe Idealize.ShloMosaic.ValueIdx

/-- The product's dimension record: [2048, 512] × [1024, 512], both contracted on axis 1. -/
abbrev D : DotDims S2048x512 S1024x512 S2048x1024 := dot_S2048x512_S1024x512_S2048x1024_1_1_0_0_n_n

theorem lhs0 (j : S2048x1024.Idx) (r : D.contr.Idx) : (D.lhsIdx j r 0).val = (j 0).val := by
  unfold DotDims.lhsIdx
  rw [dif_neg (show ¬(0 : Fin S2048x512.rank) ∈ D.lhsBatch by decide), dif_pos (show (0 : Fin S2048x512.rank) ∈ D.lhsNonContracting by decide)]
  rfl
theorem lhs1 (j : S2048x1024.Idx) (r : D.contr.Idx) : (D.lhsIdx j r 1).val = (r ⟨0, by decide⟩).val :=
  D.lhsIdx_val_of_single rfl j r
theorem rhs0 (j : S2048x1024.Idx) (r : D.contr.Idx) : (D.rhsIdx j r 0).val = (j 1).val := by
  unfold DotDims.rhsIdx
  rw [dif_neg (show ¬(0 : Fin S1024x512.rank) ∈ D.rhsBatch by decide), dif_pos (show (0 : Fin S1024x512.rank) ∈ D.rhsNonContracting by decide)]
  rfl
theorem rhs1 (j : S2048x1024.Idx) (r : D.contr.Idx) : (D.rhsIdx j r 1).val = (r ⟨0, by decide⟩).val :=
  D.rhsIdx_val_of_single rfl j r

/-- The zero tile. -/
theorem pay1_apply (y : S2048x1024.Idx) : k2_pay1 (F := Ideal) y = 0 := by
  show Ideal.ofBits .f32 0x00000000#32 = 0
  exact Ideal.ofBits_zero_f32

/-- The accumulating store: what was there plus the block's 512 products. -/
theorem pay2_apply (v3 : Vec Ideal S2048x1024 .f32) (v5 : FVec Ideal S2048x512 .bf16) (v7 : FVec Ideal S1024x512 .bf16)
    (p : Fin 2048) (q : Fin 1024) :
    k2_pay2 v3 v5 v7 (ix2 p q) = v3 (ix2 p q) + ∑ k : Fin 512, v5 (ix2 p k) * v7 (ix2 q k) := by
  unfold k2_pay2
  show shapeCast S2048x1024 v3 shapeCasts_S2048x1024_S2048x1024 (ix2 p q)
      + matmul D none (shapeCast S2048x512 v5 shapeCasts_S2048x512_S2048x512) (shapeCast S1024x512 v7 shapeCasts_S1024x512_S1024x512)
          (constant (F := Ideal) S2048x1024 .f32 0x00000000#32) (ix2 p q) = _
  rw [shapeCast_self, shapeCast_self, shapeCast_self]
  refine congrArg (v3 (ix2 p q) + ·) ?_
  exact Cert.LibContract1.matmul_zero_single D 512 rfl rfl v5 v7 (ix2 p q) (fun k => ix2 p k) (fun k => ix2 q k)
    (fun k => funext fun a => Fin.ext (by
      match a with
      | ⟨0, _⟩ => exact lhs0 _ _
      | ⟨1, _⟩ => exact (lhs1 _ _).trans (contrEquiv1_symm_val D 512 rfl rfl k)))
    (fun k => funext fun a => Fin.ext (by
      match a with
      | ⟨0, _⟩ => exact rhs0 _ _
      | ⟨1, _⟩ => exact (rhs1 _ _).trans (contrEquiv1_symm_val D 512 rfl rfl k)))

/-- The closing store: the bias row added to every row. -/
theorem pay3_apply (v15 : Vec Ideal S2048x1024 .f32) (v17 : Vec Ideal S1x1024 .f32) (p : Fin 2048) (q : Fin 1024) :
    k2_pay3 v15 v17 (ix2 p q) = v15 (ix2 p q) + v17 (ix2 (0 : Fin 1) q) := by
  unfold k2_pay3
  show shapeCast S2048x1024 v15 shapeCasts_S2048x1024_S2048x1024 (ix2 p q)
      + broadcastTo S2048x1024 (shapeCast S1x1024 (shapeCast S1x1024 v17 shapeCasts_S1x1024_S1x1024) shapeCasts_S1x1024_S1x1024)
          broadcasts_S1x1024_S2048x1024 (ix2 p q) = _
  rw [shapeCast_self, shapeCast_self, shapeCast_self]
  refine congrArg (v15 (ix2 p q) + ·) ?_
  exact broadcastTo_apply v17 broadcasts_S1x1024_S2048x1024 (ix2 p q) (ix2 (0 : Fin 1) q) (fun a => by
    match a with
    | ⟨0, _⟩ => show (0 : ℕ) = if (1 : ℕ) = 1 then 0 else p.val; rw [if_pos rfl]
    | ⟨1, _⟩ => show q.val = if (1024 : ℕ) = 1 then 0 else q.val; rw [if_neg (by decide)])

end Cert.KernelIdeal.MatmulPay

end
-- ==== Proof.LibNatRead.lean ====
/-
  A matrix read at natural-number coordinates.

  An entry of an [a, b] array is named by a pair of bounded coordinates; arithmetic on block offsets (row tile `i`,
  row `p` inside it: row `i * rows + p`) is arithmetic on naturals. `nat2 A r c` is the entry of `A` at row `r`,
  column `c` when both are inside the array and `0` otherwise, so a sum over a block of columns can be written
  over a range of naturals and re-tiled by plain arithmetic. Inside the array it is the entry itself
  (`nat2_ix2`, `eq_nat2`).
-/
import Idealize.ShloMosaic.Lib.ValueIdx
import Mathlib.Data.EReal.Basic

noncomputable section

namespace Cert.LibNatRead

open Idealize.ShloMosaic Idealize.ShloMosaic.ValueIdx

/-- The entry of `A` at row `r`, column `c`; zero outside the array. -/
def nat2 {a b : ℕ} (A : (⟨2, ![a, b]⟩ : Shape).Idx → EReal) (r c : ℕ) : EReal :=
  if h : r < a ∧ c < b then A (ix2 ⟨r, h.1⟩ ⟨c, h.2⟩) else 0

/-- At the coordinates of an index built from bounded coordinates it is the entry. -/
theorem nat2_ix2 {a b : ℕ} (A : (⟨2, ![a, b]⟩ : Shape).Idx → EReal) (p : Fin a) (q : Fin b) :
    nat2 A p.val q.val = A (ix2 p q) := by
  unfold nat2
  rw [dif_pos ⟨p.isLt, q.isLt⟩]

/-- An entry of `A` is `nat2 A` at the index's two coordinate values. -/
theorem eq_nat2 {a b : ℕ} (A : (⟨2, ![a, b]⟩ : Shape).Idx → EReal) (i : (⟨2, ![a, b]⟩ : Shape).Idx) (r c : ℕ)
    (h0 : (i 0).val = r) (h1 : (i 1).val = c) : A i = nat2 A r c := by
  subst h0 h1
  rw [eq_ix2 i]
  exact (nat2_ix2 A (i 0) (i 1)).symm

/-- Reading an entrywise image: inside the array the image of the entry. -/
theorem nat2_map_of_lt {a b : ℕ} (f : EReal → EReal) (A : (⟨2, ![a, b]⟩ : Shape).Idx → EReal) (r c : ℕ)
    (hr : r < a) (hc : c < b) : nat2 (fun i => f (A i)) r c = f (A (ix2 ⟨r, hr⟩ ⟨c, hc⟩)) := by
  unfold nat2
  rw [dif_pos ⟨hr, hc⟩]

end Cert.LibNatRead

end
-- ==== Proof.MatmulFold.lean ====
/-
  The matrix-product kernel: what its output buffer holds after each grid point.

  The grid is 4 × 4 × 8: point `n` works on row tile `n / 32` (2048 rows), column tile `n / 8 % 4` (1024 columns)
  and column block `n % 8` of the contraction (512 of the 4096 shared columns). Its three input blocks are read off
  the arrays the region finds — the binarised `x`, the binarised weights, the bias as a row — at those offsets
  (`blk0`, `blk1`, `blk2`), so the product the body adds at point `n`, at row `p` and column `q` of the tile, is
      Mblk r c (n % 8) = ∑ l < 512, X r (512·(n % 8) + l) · W c (512·(n % 8) + l),   r = 2048·(n / 32) + p,  c = 1024·(n / 8 % 4) + q.
  By induction on the point (`outsAt_eq`): after point `n` the buffer holds `0` plus the products of column blocks
  `0 … n % 8` of its tile, plus the bias entry once the last block (`n % 8 = 7`) is done.
-/
import proofs.«159433_j19859928776709_2_alg».proof.Proof.Gen.KernelIdeal.Frame
import proofs.«159433_j19859928776709_2_alg».proof.Proof.MatmulBody
import proofs.«159433_j19859928776709_2_alg».proof.Proof.MatmulPay
import proofs.«159433_j19859928776709_2_alg».proof.Proof.LibNatRead
import Idealize.ShloMosaic.Lib.Pipeline.Value

noncomputable section

namespace Cert.KernelIdeal.MatmulFold

open Cert.KernelIdeal Cert.KernelIdeal.Gen Cert.LibNatRead
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, as it finds them: the binarised `x`, the binarised weights, the bias row. -/
abbrev X (c : Dev nD) : (⟨2, ![8192, 4096]⟩ : Shape).Idx → EReal := V c main_v0
abbrev Wt (c : Dev nD) : (⟨2, ![4096, 4096]⟩ : Shape).Idx → EReal := V c main_v1
abbrev B (c : Dev nD) : (⟨2, ![1, 4096]⟩ : Shape).Idx → EReal := V c main_v2

/-- Where each window's block sits at point `t`, decided over the grid's 128 points. -/
theorem idx_facts : ∀ t : Fin cfg2.N,
    win2_0.index t (0 : Fin 2) = t.val / 32 ∧ win2_0.index t (1 : Fin 2) = t.val % 8
    ∧ win2_1.index t (0 : Fin 2) = t.val / 8 % 4 ∧ win2_1.index t (1 : Fin 2) = t.val % 8
    ∧ win2_2.index t (0 : Fin 2) = 0 ∧ win2_2.index t (1 : Fin 2) = t.val / 8 % 4
    ∧ win2_3.index t (0 : Fin 2) = t.val / 32 ∧ win2_3.index t (1 : Fin 2) = t.val / 8 % 4 :=
  (by decide +kernel : ∀ t : Fin grid2.N, _)

/-- The block of the binarised `x` at point `t`: rows from `2048·(t / 32)`, columns from `512·(t % 8)`. -/
theorem blk0 (c : Dev nD) (t : Fin cfg2.N) (p : Fin 2048) (l : Fin 512) :
    (iblk2 V c 0 t : Vec Ideal S2048x512 .bf16) (ix2 p l) = nat2 (X V c) (t.val / 32 * 2048 + p.val) (t.val % 8 * 512 + l.val) := by
  obtain ⟨e0, e1, -⟩ := idx_facts t
  unfold iblk2
  rw [View.read_apply]
  refine eq_nat2 (X V c) (((cfg2.win 0).blk t).view.emb (ix2 p l)) _ _ ?_ ?_
  · show win2_0.index t (0 : Fin 2) * 2048 + 1 * p.val = _; rw [e0]; omega
  · show win2_0.index t (1 : Fin 2) * 512 + 1 * l.val = _; rw [e1]; omega

/-- The block of the binarised weights at point `t`: rows from `1024·(t / 8 % 4)`, columns from `512·(t % 8)`. -/
theorem blk1 (c : Dev nD) (t : Fin cfg2.N) (q : Fin 1024) (l : Fin 512) :
    (iblk2 V c 1 t : Vec Ideal S1024x512 .bf16) (ix2 q l) = nat2 (Wt V c) (t.val / 8 % 4 * 1024 + q.val) (t.val % 8 * 512 + l.val) := by
  obtain ⟨-, -, e0, e1, -⟩ := idx_facts t
  unfold iblk2
  rw [View.read_apply]
  refine eq_nat2 (Wt V c) (((cfg2.win 1).blk t).view.emb (ix2 q l)) _ _ ?_ ?_
  · show win2_1.index t (0 : Fin 2) * 1024 + 1 * q.val = _; rw [e0]; omega
  · show win2_1.index t (1 : Fin 2) * 512 + 1 * l.val = _; rw [e1]; omega

/-- The block of the bias row at point `t`: its one row, columns from `1024·(t / 8 % 4)`. -/
theorem blk2 (c : Dev nD) (t : Fin cfg2.N) (q : Fin 1024) :
    (iblk2 V c 2 t : Vec Ideal S1x1024 .f32) (ix2 (0 : Fin 1) q) = nat2 (B V c) 0 (t.val / 8 % 4 * 1024 + q.val) := by
  obtain ⟨-, -, -, -, e0, e1, -⟩ := idx_facts t
  unfold iblk2
  rw [View.read_apply]
  refine eq_nat2 (B V c) (((cfg2.win 2).blk t).view.emb (ix2 (0 : Fin 1) q)) _ _ ?_ ?_
  · show win2_2.index t (0 : Fin 2) * 1 + 1 * 0 = _; rw [e0]
  · show win2_2.index t (1 : Fin 2) * 1024 + 1 * q.val = _; rw [e1]; omega

/-- The products of column block `s` at row `r` of the binarised `x` and row `q` of the binarised weights. -/
def Mblk (c : Dev nD) (r q s : ℕ) : EReal :=
  ∑ l ∈ Finset.range 512, nat2 (X V c) r (s * 512 + l) * nat2 (Wt V c) q (s * 512 + l)

/-- The accumulating store at point `t`: what the buffer held plus the point's block of products. -/
theorem step (c : Dev nD) (t : Fin cfg2.N) (acc : Vec Ideal S2048x1024 .f32) (p : Fin 2048) (q : Fin 1024) :
    k2_pay2 acc (iblk2 V c 0 t) (iblk2 V c 1 t) (ix2 p q)
      = acc (ix2 p q) + Mblk V c (t.val / 32 * 2048 + p.val) (t.val / 8 % 4 * 1024 + q.val) (t.val % 8) := by
  refine (MatmulPay.pay2_apply acc (iblk2 V c 0 t) (iblk2 V c 1 t) p q).trans ?_
  refine congrArg (acc (ix2 p q) + ·) ?_
  unfold Mblk
  rw [Finset.sum_range]
  refine Finset.sum_congr rfl fun k _ => ?_
  rw [blk0, blk1]

/-- First column block of a tile (`t % 8 = 0`): zero plus the block's products. -/
theorem caseA (c : Dev nD) (t : Fin cfg2.N) (h0 : t.val % 8 = 0) (h1 : ¬t.val % 8 = 7) (p : Fin 2048) (q : Fin 1024) :
    outsAt2 V c t.val t.isLt (ix2 p q)
      = 0 + Mblk V c (t.val / 32 * 2048 + p.val) (t.val / 8 % 4 * 1024 + q.val) (t.val % 8) := by
  rw [outsAt2_A V c t h0 h1, MatmulBody.out_A]
  refine (step V c t _ p q).trans ?_
  rw [MatmulPay.pay1_apply]

/-- A middle column block: what the point before left plus the block's products. -/
theorem caseB (c : Dev nD) (t : Fin cfg2.N) (h0 : ¬t.val % 8 = 0) (h1 : ¬t.val % 8 = 7) (p : Fin 2048) (q : Fin 1024) :
    outsAt2 V c t.val t.isLt (ix2 p q)
      = outsAt2 V c (t.val - 1) (Nat.lt_of_le_of_lt (Nat.sub_le _ _) t.isLt) (ix2 p q)
        + Mblk V c (t.val / 32 * 2048 + p.val) (t.val / 8 % 4 * 1024 + q.val) (t.val % 8) := by
  rw [outsAt2_B V c t h0 h1, MatmulBody.out_B]
  exact step V c t _ p q

/-- The last column block: the same, and then the bias entry of the tile's column. -/
theorem caseC (c : Dev nD) (t : Fin cfg2.N) (h0 : ¬t.val % 8 = 0) (h1 : t.val % 8 = 7) (p : Fin 2048) (q : Fin 1024) :
    outsAt2 V c t.val t.isLt (ix2 p q)
      = outsAt2 V c (t.val - 1) (Nat.lt_of_le_of_lt (Nat.sub_le _ _) t.isLt) (ix2 p q)
        + Mblk V c (t.val / 32 * 2048 + p.val) (t.val / 8 % 4 * 1024 + q.val) (t.val % 8)
        + nat2 (B V c) 0 (t.val / 8 % 4 * 1024 + q.val) := by
  rw [outsAt2_C V c t h0 h1, MatmulBody.out_C]
  refine (MatmulPay.pay3_apply _ (iblk2 V c 2 t) p q).trans ?_
  rw [step V c t _ p q, blk2]

/-- After point `n`: zero, plus the products of column blocks `0 … n % 8` of the point's tile, plus — once the last
    block is in — the bias entry. -/
theorem outsAt_eq (c : Dev nD) : ∀ (n : ℕ) (h : n < cfg2.N) (p : Fin 2048) (q : Fin 1024),
    outsAt2 V c n h (ix2 p q)
      = 0 + ∑ s ∈ Finset.range (n % 8 + 1), Mblk V c (n / 32 * 2048 + p.val) (n / 8 % 4 * 1024 + q.val) s
        + (if n % 8 = 7 then nat2 (B V c) 0 (n / 8 % 4 * 1024 + q.val) else 0) := by
  intro n
  induction n with
  | zero =>
    intro h p q
    rw [show outsAt2 V c 0 h (ix2 p q) = 0 + Mblk V c (0 / 32 * 2048 + p.val) (0 / 8 % 4 * 1024 + q.val) (0 % 8)
      from caseA V c ⟨0, h⟩ rfl (by show ¬(0 : ℕ) % 8 = 7; decide) p q]
    rw [show (0 : ℕ) % 8 + 1 = 1 from rfl, Finset.sum_range_one, if_neg (by decide), add_zero]
  | succ n ih =>
    intro h p q
    have hn : n < cfg2.N := Nat.lt_of_succ_lt h
    by_cases h0 : (n + 1) % 8 = 0
    · have h1 : ¬(n + 1) % 8 = 7 := by omega
      rw [show outsAt2 V c (n + 1) h (ix2 p q)
          = 0 + Mblk V c ((n + 1) / 32 * 2048 + p.val) ((n + 1) / 8 % 4 * 1024 + q.val) ((n + 1) % 8)
        from caseA V c ⟨n + 1, h⟩ h0 h1 p q]
      rw [if_neg h1, add_zero, h0, Finset.sum_range_one]
    · by_cases h1 : (n + 1) % 8 = 7
      · rw [show outsAt2 V c (n + 1) h (ix2 p q)
            = outsAt2 V c n hn (ix2 p q)
              + Mblk V c ((n + 1) / 32 * 2048 + p.val) ((n + 1) / 8 % 4 * 1024 + q.val) ((n + 1) % 8)
              + nat2 (B V c) 0 ((n + 1) / 8 % 4 * 1024 + q.val)
          from caseC V c ⟨n + 1, h⟩ h0 h1 p q, ih hn p q]
        have e1 : (n + 1) / 32 = n / 32 := by omega
        have e2 : (n + 1) / 8 = n / 8 := by omega
        have e3 : (n + 1) % 8 = n % 8 + 1 := by omega
        have e4 : ¬n % 8 = 7 := by omega
        have e5 : n % 8 + 1 = 7 := by omega
        rw [e1, e2, e3, if_neg e4, if_pos e5, Finset.sum_range_succ _ (n % 8 + 1), add_zero, add_assoc 0]
      · rw [show outsAt2 V c (n + 1) h (ix2 p q)
            = outsAt2 V c n hn (ix2 p q)
              + Mblk V c ((n + 1) / 32 * 2048 + p.val) ((n + 1) / 8 % 4 * 1024 + q.val) ((n + 1) % 8)
          from caseB V c ⟨n + 1, h⟩ h0 h1 p q, ih hn p q]
        have e1 : (n + 1) / 32 = n / 32 := by omega
        have e2 : (n + 1) / 8 = n / 8 := by omega
        have e3 : (n + 1) % 8 = n % 8 + 1 := by omega
        have e4 : ¬n % 8 = 7 := by omega
        have e5 : ¬n % 8 + 1 = 7 := by omega
        rw [e1, e2, e3, if_neg e4, if_neg e5, Finset.sum_range_succ _ (n % 8 + 1), add_zero, add_zero, add_assoc 0]

end Cert.KernelIdeal.MatmulFold

end
-- ==== Proof.LibTileSum.lean ====
/- Sums over a range cut into equal tiles.

   A sum over the first `a·b` naturals is the sum over `a` tiles of `b` consecutive naturals each; cutting each tile
   again gives the three-level form a tiled, lane-preserving accumulation produces: tile `j`, row `k` inside the tile,
   lane `l` inside the row, at position `j·(b·c) + k·c + l` — in whatever order the three sums are taken, since the
   value monoid is commutative. -/
import Mathlib.Algebra.BigOperators.Intervals
import Mathlib.Algebra.BigOperators.Fin

namespace Cert.TileSum

open Finset

/-- A sum over `range (a * b)` is the sum over `a` consecutive tiles of length `b`. -/
theorem sum_range_mul {M : Type*} [AddCommMonoid M] (g : ℕ → M) (a b : ℕ) :
    ∑ n ∈ range (a * b), g n = ∑ i ∈ range a, ∑ j ∈ range b, g (i * b + j) := by
  induction a with
  | zero => simp
  | succ a ih => rw [Nat.succ_mul, sum_range_add, ih, sum_range_succ]

/-- Three levels, the innermost (lane) sum taken OUTERMOST: the sum over lanes `l`, tiles `j` and rows `k` of the
    value at `j·(b·c) + k·c + l` is the sum over `range (a·(b·c))`. -/
theorem sum_lanes_tiles_rows {M : Type*} [AddCommMonoid M] (g : ℕ → M) (a b c : ℕ) :
    ∑ l ∈ range c, ∑ j ∈ range a, ∑ k ∈ range b, g (j * (b * c) + k * c + l)
      = ∑ n ∈ range (a * (b * c)), g n := by
  rw [sum_range_mul g a (b * c), sum_comm]
  refine sum_congr rfl fun j _ => ?_
  rw [sum_range_mul (fun n => g (j * (b * c) + n)) b c, sum_comm]
  refine sum_congr rfl fun k _ => sum_congr rfl fun l _ => ?_
  rw [Nat.add_assoc]

end Cert.TileSum
-- ==== Proof.MatmulFinal.lean ====
/-
  The matrix-product kernel: what its result array holds after the run.

  A tile of the result is written back once, after the last of its eight column blocks. By then the buffer holds zero,
  plus the eight blocks of 512 products, plus the bias entry; eight consecutive blocks of 512 columns are the 4096
  shared columns, so the tile's entry at row `p`, column `q` is
      ∑ k < 4096, X r k · W c k + bias c,     r = 2048·(row tile) + p,  c = 1024·(column tile) + q
  — entry `(r, c)` of ONE array, `outArr`, of the three arrays the region finds. The sixteen tiles cover the result:
  entry `(r, c)` is written by the point of row tile `r / 2048`, column tile `c / 1024`, column block 7.
-/
import proofs.«159433_j19859928776709_2_alg».proof.Proof.MatmulFold
import proofs.«159433_j19859928776709_2_alg».proof.Proof.LibTileSum

noncomputable section

namespace Cert.KernelIdeal.MatmulFinal

open Cert.KernelIdeal Cert.KernelIdeal.Gen Cert.LibNatRead Cert.KernelIdeal.MatmulFold
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Entry `(r, q)` of the layer on the arrays the region finds, by natural coordinates. -/
def gN (c : Dev nD) (r q : ℕ) : EReal :=
  ∑ k ∈ Finset.range 4096, nat2 (X V c) r k * nat2 (Wt V c) q k + nat2 (B V c) 0 q

/-- The array the result ends holding. -/
def outArr (c : Dev nD) : S8192x4096.Idx → Elt Ideal .f32 := fun i => gN V c (i 0).val (i 1).val

/-- Zero, eight consecutive blocks of 512 products and the bias entry: the whole contraction plus the bias. -/
theorem tile_sum (c : Dev nD) (r q : ℕ) :
    0 + ∑ s ∈ Finset.range 8, Mblk V c r q s + nat2 (B V c) 0 q = gN V c r q := by
  unfold gN Mblk
  rw [zero_add]
  have e : ∑ k ∈ Finset.range 4096, nat2 (X V c) r k * nat2 (Wt V c) q k
      = ∑ s ∈ Finset.range 8, ∑ l ∈ Finset.range 512, nat2 (X V c) r (s * 512 + l) * nat2 (Wt V c) q (s * 512 + l) :=
    Cert.TileSum.sum_range_mul (fun k => nat2 (X V c) r k * nat2 (Wt V c) q k) 8 512
  rw [e]

/-- What a flushing point writes back is its block of `outArr`. -/
theorem flushed_eq (c : Dev nD) (t : Fin cfg2.N) (hf : (cfg2.win 3).flush t = true) :
    (dat2 V c).flushed 3 t = ((cfg2.win 3).blk t).view.read (Elt Ideal) (outArr V c) := by
  have h7 : t.val % 8 = 7 := (flush2_3 t).mp hf
  obtain ⟨-, -, -, -, -, -, e0, e1⟩ := idx_facts t
  show (cfg2.win 3).cut (grid2.coords t) ((dat2 V c).after 3 t) = _
  rw [after2_3]
  funext j
  obtain ⟨p, q, rfl⟩ : ∃ (p : Fin 2048) (q : Fin 1024), j = (ix2 p q : S2048x1024.Idx) :=
    ⟨j 0, j 1, eq_ix2 (n0 := 2048) (n1 := 1024) j⟩
  show outsAt2 V c t.val t.isLt (ix2 p q)
    = gN V c ((((cfg2.win 3).blk t).view.emb (ix2 p q)) 0).val ((((cfg2.win 3).blk t).view.emb (ix2 p q)) 1).val
  have r0 : ((((cfg2.win 3).blk t).view.emb (ix2 p q)) 0).val = t.val / 32 * 2048 + p.val := by
    show win2_3.index t (0 : Fin 2) * 2048 + 1 * p.val = _; rw [e0]; omega
  have r1 : ((((cfg2.win 3).blk t).view.emb (ix2 p q)) 1).val = t.val / 8 % 4 * 1024 + q.val := by
    show win2_3.index t (1 : Fin 2) * 1024 + 1 * q.val = _; rw [e1]; omega
  rw [r0, r1, outsAt_eq V c t.val t.isLt p q, h7, if_pos rfl]
  exact tile_sum V c _ _

/-- An index of the result lies in point `t`'s tile iff each coordinate is in the tile's range on its axis. -/
theorem mem_blk (t : Fin cfg2.N) (i : S8192x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v3).slice (win2_3.rect t)).set ↔ _
  rw [View.set_slice_whole, Rect.mem_set_unit]
  exact Iff.rfl

/-- The result array after the run. -/
theorem final (c : Dev nD) : (dat2 V c).arrAt 3 cfg2.N = outArr V c :=
  (dat2 V c).arrAt_eq_of_cover 3 (outArr V c) (flushed_eq V c) fun i => by
    have hi0 : (i 0).val < 8192 := (i 0).isLt
    have hi1 : (i 1).val < 4096 := (i 1).isLt
    have hN : cfg2.N = 128 := N_2
    have hlt : (i 0).val / 2048 * 32 + (i 1).val / 1024 * 8 + 7 < cfg2.N := by rw [hN]; omega
    obtain ⟨-, -, -, -, -, -, e0, e1⟩ := idx_facts ⟨(i 0).val / 2048 * 32 + (i 1).val / 1024 * 8 + 7, hlt⟩
    refine ⟨⟨(i 0).val / 2048 * 32 + (i 1).val / 1024 * 8 + 7, hlt⟩, (flush2_3 _).mpr (by dsimp only; omega), ?_⟩
    rw [mem_blk]
    intro a
    match a with
    | ⟨0, _⟩ =>
      show win2_3.index ⟨(i 0).val / 2048 * 32 + (i 1).val / 1024 * 8 + 7, hlt⟩ (0 : Fin 2) * 2048 ≤ (i 0).val
        ∧ (i 0).val < win2_3.index ⟨(i 0).val / 2048 * 32 + (i 1).val / 1024 * 8 + 7, hlt⟩ (0 : Fin 2) * 2048 + 2048
      rw [e0]; dsimp only; omega
    | ⟨1, _⟩ =>
      show win2_3.index ⟨(i 0).val / 2048 * 32 + (i 1).val / 1024 * 8 + 7, hlt⟩ (1 : Fin 2) * 1024 ≤ (i 1).val
        ∧ (i 1).val < win2_3.index ⟨(i 0).val / 2048 * 32 + (i 1).val / 1024 * 8 + 7, hlt⟩ (1 : Fin 2) * 1024 + 1024
      rw [e1]; dsimp only; omega

end Cert.KernelIdeal.MatmulFinal

end
-- ==== Proof.Chain.lean ====
/-
  From the launch memory to the result.

  The third region reads three arrays. The binarised `x` is the first region's output, which nothing touches
  afterwards; the binarised weights are the second region's output; the bias row is the host's reshape of the bias
  argument to [1, 4096]. With those in place the third region's result array, `outArr`, is the specification `lin` of
  the three arguments: its contraction over the naturals below 4096 is the sum over the 4096 column coordinates, each
  factor the binarised entry, and the bias row's entry `(0, c)` is the bias at `c`.
-/
import proofs.«159433_j19859928776709_2_alg».proof.Proof.Gen.KernelIdeal.Frame
import proofs.«159433_j19859928776709_2_alg».proof.Proof.Binarize0
import proofs.«159433_j19859928776709_2_alg».proof.Proof.Binarize1
import proofs.«159433_j19859928776709_2_alg».proof.Proof.MatmulFinal
import proofs.«159433_j19859928776709_2_alg».proof.Proof.Spec
import Idealize.ShloMosaic.Lib.ValueLayout
import Idealize.ShloMosaic.Lib.StableHlo.Run

noncomputable section

namespace Cert.KernelIdeal.Chain

open Cert.KernelIdeal Cert.KernelIdeal.Gen Cert.BinLinear Cert.LibNatRead
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The third region finds the first region's output: `x` binarised. -/
theorem v3_x (c : Dev nD) :
    (V3 m ρ c main_v0 : S8192x4096.Idx → EReal) = fun i => bin (m ((c : Thread nD τ).loc main_arg0) i) :=
  calc V3 m ρ c main_v0
    _ = W2 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.reshape_writes, Finset.mem_singleton]
          exact StableHlo.devRef_ne_of_ne (by decide)))
    _ = W1 m ρ c (Proc.devRef .tc main_v0) := W2_of_ne m ρ c main_v0 (by decide)
    _ = (dat0 (V0 m ρ) c).arrAt 1 cfg0.N := W1_arr m ρ c 1
    _ = Bin0.binArr (V0 m ρ) c := Bin0.final (V0 m ρ) c
    _ = fun i => bin (m ((c : Thread nD τ).loc main_arg0) i) := rfl

/-- The second region reads the weights as launched. -/
theorem v1_w (c : Dev nD) : V1 m ρ c main_arg1 = m ((c : Thread nD τ).loc main_arg1) :=
  calc V1 m ρ c main_arg1
    _ = W0 m ρ c (Proc.devRef .tc main_arg1) := W1_of_ne m ρ c main_arg1 (by decide)
    _ = m ((c : Thread nD τ).loc main_arg1) := rfl

/-- The third region finds the second region's output: the weights binarised. -/
theorem v3_w (c : Dev nD) :
    (V3 m ρ c main_v1 : S4096x4096.Idx → EReal) = fun i => bin (m ((c : Thread nD τ).loc main_arg1) i) :=
  calc V3 m ρ c main_v1
    _ = W2 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.reshape_writes, Finset.mem_singleton]
          exact StableHlo.devRef_ne_of_ne (by decide)))
    _ = (dat1 (V1 m ρ) c).arrAt 1 cfg1.N := W2_arr m ρ c 1
    _ = Bin1.binArr (V1 m ρ) c := Bin1.final (V1 m ρ) c
    _ = fun i => bin (m ((c : Thread nD τ).loc main_arg1) i) := by
        unfold Bin1.binArr; rw [v1_w]; rfl

/-- No region before the reshape writes the bias argument. -/
theorem w2_b (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The third region finds the bias reshaped to a row. -/
theorem v3_b (c : Dev nD) :
    (V3 m ρ c main_v2 : S1x4096.Idx → EReal)
      = shapeCast S1x4096 (m ((c : Thread nD τ).loc main_arg2)) shapeCasts_S4096_S1x4096 := by
  rw [← w2_b m ρ c]
  show StableHlo.after hostOps2 (W2 m ρ c) (Proc.devRef .tc main_v2) = _
  after_results
  rfl

/-- The result buffer's final contents are the layer of the three arguments. -/
theorem result_eq (c : Dev nD) :
    (W4 m ρ c (Proc.devRef .tc main_v3) : S8192x4096.Idx → EReal)
      = lin (m ((c : Thread nD τ).loc main_arg0)) (m ((c : Thread nD τ).loc main_arg1)) (m ((c : Thread nD τ).loc main_arg2)) := by
  rw [show W4 m ρ c (Proc.devRef .tc main_v3) = (dat2 (V3 m ρ) c).arrAt 3 cfg2.N from W4_arr m ρ c 3,
    MatmulFinal.final]
  funext i
  show MatmulFinal.gN (V3 m ρ) c (i 0).val (i 1).val = _
  unfold MatmulFinal.gN lin
  have hx : MatmulFold.X (V3 m ρ) c = fun j => bin (m ((c : Thread nD τ).loc main_arg0) j) := v3_x m ρ c
  have hw : MatmulFold.Wt (V3 m ρ) c = fun j => bin (m ((c : Thread nD τ).loc main_arg1) j) := v3_w m ρ c
  have hb : MatmulFold.B (V3 m ρ) c = shapeCast S1x4096 (m ((c : Thread nD τ).loc main_arg2)) shapeCasts_S4096_S1x4096 :=
    v3_b m ρ c
  rw [hx, hw, hb, Finset.sum_range]
  have e0 : ∀ k : Fin 4096,
      nat2 (fun j => bin (m ((c : Thread nD τ).loc main_arg0) j)) (i 0).val k.val = bin (m ((c : Thread nD τ).loc main_arg0) (ix2 (i 0) k)) :=
    fun k => nat2_ix2 (fun j => bin (m ((c : Thread nD τ).loc main_arg0) j)) (i 0) k
  have e1 : ∀ k : Fin 4096,
      nat2 (fun j => bin (m ((c : Thread nD τ).loc main_arg1) j)) (i 1).val k.val = bin (m ((c : Thread nD τ).loc main_arg1) (ix2 (i 1) k)) :=
    fun k => nat2_ix2 (fun j => bin (m ((c : Thread nD τ).loc main_arg1) j)) (i 1) k
  have e2 : nat2 (shapeCast S1x4096 (m ((c : Thread nD τ).loc main_arg2)) shapeCasts_S4096_S1x4096) 0 (i 1).val
      = m ((c : Thread nD τ).loc main_arg2) (ix1 (i 1)) :=
    (nat2_ix2 (shapeCast S1x4096 (m ((c : Thread nD τ).loc main_arg2)) shapeCasts_S4096_S1x4096) (0 : Fin 1) (i 1)).trans
      (shapeCast_a_1a_apply (m ((c : Thread nD τ).loc main_arg2)) shapeCasts_S4096_S1x4096 (0 : Fin 1) (i 1))
  rw [e2]
  refine congrArg (· + m ((c : Thread nD τ).loc main_arg2) (ix1 (i 1))) (Finset.sum_congr rfl fun k _ => ?_)
  exact congrArg₂ (· * ·) (e0 k) (e1 k)

end Cert.KernelIdeal.Chain

end
-- ==== Proof.RefSide.lean ====
/-
  The reference is the specification.

  The reference binarises `weight` and `x` entry by entry (`where (· > 0) 1.0 (-(1.0))`), contracts the two results
  over their shared column axis and adds the bias row to every row. Read at an index, operation by operation, that is
  `lin` of its three arguments: the contraction is the sum over the 4096 columns of the products of the binarised
  entries of row `i 0` of `x` and row `i 1` of `weight`, and the twice-broadcast bias reads `bias (i 1)`.
-/
import proofs.«159433_j19859928776709_2_alg».proof.Defs
import proofs.«159433_j19859928776709_2_alg».proof.Proof.Gen.ReferenceIdeal.Read
import proofs.«159433_j19859928776709_2_alg».proof.Proof.Spec

noncomputable section

namespace Cert.ReferenceIdeal.RefValue

open Cert.ReferenceIdeal Cert.ReferenceIdeal.Gen Cert.ReferenceIdeal.Read Cert.BinLinear
open Idealize.ShloMosaic Idealize.ShloMosaic.ValueIdx

/-- The contraction reads row `i 0` of its left operand … -/
theorem lidx_eq (i : S8192x4096.Idx) (k : Fin 4096) : lidx_main_v8 i k = ix2 (i 0) k :=
  funext fun a => Fin.ext (by match a with | ⟨0, _⟩ => rfl | ⟨1, _⟩ => rfl)

/-- … and row `i 1` of its right operand, both at column `k`. -/
theorem ridx_eq (i : S8192x4096.Idx) (k : Fin 4096) : ridx_main_v8 i k = ix2 (i 1) k :=
  funext fun a => Fin.ext (by match a with | ⟨0, _⟩ => rfl | ⟨1, _⟩ => rfl)

/-- The bias, broadcast to a row and then to every row, reads entry `i 1`. -/
theorem bidx_eq (i : S8192x4096.Idx) : idx_main_v9 (idx_main_v10 i) = ix1 (i 1) :=
  funext fun a => Fin.ext (by match a with | ⟨0, _⟩ => rfl)

/-- A binarised entry of `x`, as the reference computes it. -/
theorem bx_apply (x0 : S8192x4096.Idx → EReal) (j : S8192x4096.Idx) : val_main_v7 (F := Ideal) x0 j = bin (x0 j) := by
  rw [val_main_v7_apply, val_main_v5_apply, val_main_v4_apply, val_main_cst_2_apply, val_main_call1_v0_apply,
    val_main_cst_4_apply, val_main_call1_v1_apply, val_main_v6_apply, val_main_cst_3_apply]
  exact bin_eq_neg (x0 j)

/-- A binarised entry of `weight`, as the reference computes it. -/
theorem bw_apply (x1 : S4096x4096.Idx → EReal) (j : S4096x4096.Idx) : val_main_v3 (F := Ideal) x1 j = bin (x1 j) := by
  rw [val_main_v3_apply, val_main_v1_apply, val_main_v0_apply, val_main_cst_apply, val_main_call0_v0_apply,
    val_main_cst_1_apply, val_main_call0_v1_apply, val_main_v2_apply, val_main_cst_0_apply]
  exact bin_eq_neg (x1 j)

/-- The reference's result is `lin` of its arguments. -/
theorem ref_eq (x0 : S8192x4096.Idx → EReal) (x1 : S4096x4096.Idx → EReal) (x2 : S4096.Idx → EReal) :
    val_main_v11 (F := Ideal) x0 x1 x2 = lin x0 x1 x2 := by
  funext i
  rw [val_main_v11_apply, val_main_v8_apply, val_main_v10_apply, val_main_v9_apply, bidx_eq]
  unfold lin
  show (∑ k : Fin 4096, val_main_v7 (F := Ideal) x0 (lidx_main_v8 i k) * val_main_v3 (F := Ideal) x1 (ridx_main_v8 i k)) + x2 (ix1 (i 1)) = _
  refine congrArg (· + x2 (ix1 (i 1))) (Finset.sum_congr rfl fun k _ => ?_)
  rw [bx_apply, bw_apply, lidx_eq, ridx_eq]
  rfl

end Cert.ReferenceIdeal.RefValue

end
-- ==== Proof.lean ====
/-
  A linear layer on binarised operands: the kernel program against its jnp reference.

  Both programs replace every entry of `x` [8192, 4096] and of `weight` [4096, 4096] by `1` where it exceeds zero and
  by `-1` elsewhere, and return `∑ₖ bin (x r k) · bin (weight c k) + bias c` at row `r`, column `c`
  (`Cert.BinLinear.lin`, Proof/Spec.lean). The reference does it in one contraction over the 4096 shared columns. The
  kernel program binarises each operand in a kernel of its own, reshapes the bias to a row, and in a third kernel walks
  a 4 × 4 × 8 grid: a [2048, 1024] tile of the result stays in the output buffer while the eight column blocks of 512
  are contracted one after the other into it from a zero start, and the bias row is added after the last block. Over
  the extended reals the two agree because addition is associative and commutative: eight consecutive blocks of 512
  columns are the 4096 columns. No cancellation or distribution is used, so the inputs' finiteness is never opened.

  The modules: Spec (the specification, the three float words), RefSide (the reference is the specification),
  Binarize0 / Binarize1 (each binarising kernel's result array), MatmulBody (the third kernel's body, case by case),
  MatmulPay (its stored values at an entry), MatmulFold (what its buffer holds after each grid point, by induction),
  MatmulFinal (its result array), RunNamed (the program's run with the result named), Chain (from the launch memory
  to the result); LibNatRead, LibContract1 and LibTileSum are general lemmas.

  The three frames are the generated ones (the reference's is its generated run with the result dropped); the ideal
  pass rewrote nothing, so `preserves` is trivial.
-/
import proofs.«159433_j19859928776709_2_alg».proof.Defs
import proofs.«159433_j19859928776709_2_alg».proof.Proof.Gen.Kernel
import proofs.«159433_j19859928776709_2_alg».proof.Proof.Gen.Kernel.Skeleton
import proofs.«159433_j19859928776709_2_alg».proof.Proof.Gen.Kernel.Launch
import proofs.«159433_j19859928776709_2_alg».proof.Proof.Gen.Kernel.Points
import proofs.«159433_j19859928776709_2_alg».proof.Proof.Gen.Kernel.Frame
import proofs.«159433_j19859928776709_2_alg».proof.Proof.Gen.KernelIdeal
import proofs.«159433_j19859928776709_2_alg».proof.Proof.Gen.KernelIdeal.Skeleton
import proofs.«159433_j19859928776709_2_alg».proof.Proof.Gen.KernelIdeal.Launch
import proofs.«159433_j19859928776709_2_alg».proof.Proof.Gen.KernelIdeal.Points
import proofs.«159433_j19859928776709_2_alg».proof.Proof.Gen.KernelIdeal.Frame
import proofs.«159433_j19859928776709_2_alg».proof.Proof.Gen.ReferenceIdeal
import proofs.«159433_j19859928776709_2_alg».proof.Proof.Gen.ReferenceIdeal.Run
import proofs.«159433_j19859928776709_2_alg».proof.Proof.Gen.ReferenceIdeal.Read
import proofs.«159433_j19859928776709_2_alg».proof.Proof.Gen.Pre_finite_inputs
import proofs.«159433_j19859928776709_2_alg».proof.Proof.RunNamed
import proofs.«159433_j19859928776709_2_alg».proof.Proof.Chain
import proofs.«159433_j19859928776709_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `lin` of the arguments: the kernel program by its run and the chain from
    the launch memory through its three regions, the reference by its run read operation by operation. -/
theorem algebraic : Cert.algebraic_KernelIdeal_ReferenceIdeal := by
  intro m ρ m' ρ' _ hagree
  refine ⟨fun c => Cert.BinLinear.lin
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Chain.result_eq m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.ref_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
